-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_cst_2 : FVec F S_ .f32 := constant S_ .f32 0x3727C5AC#32
  let main_v9 : FVec F S4096x4096 .f32 := broadcastInDim S4096x4096 ![] bcast_S_S4096x4096 main_cst_2
  let main_v10 : FVec F S4096x4096 .f32 := addf main_arg1 main_v9
  let main_cst_3 : FVec F S_ .f32 := constant S_ .f32 0x00000000#32
  let main_v11 : FVec F S4096x4096 .f32 := broadcastInDim S4096x4096 ![] bcast_S_S4096x4096 main_cst_3
  let main_v12 : IVec S4096x4096 1 := cmpf .ogt main_v10 main_v11
  let main_c_4 : IVec S_ 1 := constantI S_ 1 1#1
  let main_v13 : IVec S_ 1 := (fun x v => Host.reduce IntOp.andi x v reducesTo_S4096x4096_S_d0_1 h_S_) main_v12 main_c_4
  let main_v14 : IVec S_ 1 := andi main_v8 main_v13
  main_v14
-- ==== Kernel.lean ====
abbrev S4096x4096 : Shape := ⟨2, ![4096, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x1, .f32⟩
  | .hbm, ⟨3, _⟩ => ⟨S1, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S1 : Shape := ⟨1, ![1]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  shapeCasts_S_S1 : S_.ShapeCasts S1

variable [Facts₀]

class Facts : Prop extends Facts₀ where

variable [Facts]
-- ==== Proof.NegSum.lean ====
/-
  Extended-real algebra for a sum of products `a · log (b + e)`, negated either term by term or once at the end.

  On the extended reals `0 - a = -a` and `(-a) * l = -(a * l)` hold for every `a` and `l`, and a finite sum may be
  regrouped freely.  What does NOT hold in general is `∑ (-x i) = -(∑ x i)`: with `⊤` and `⊥` both among the terms the
  left side is `⊥ + ⊤ = ⊥` and the right side `-(⊤ + ⊥) = ⊤`.  It does hold when every term is a real number, and a
  term `a * log (b + e)` is a real number as soon as `a`, `b`, `e` are real and `0 < b + e` (the logarithm of a
  positive real is a real; at `0` it is `⊥`).
-/
import Idealize.ShloMosaic.PureOps.Ideal

noncomputable section

open scoped BigOperators

namespace Cert.LogLoss

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Negation passes through a finite sum whose terms are all real numbers. -/
theorem sum_neg_of_real {ι : Type*} [Fintype ι] (x : ι → EReal) (hx : ∀ i, ∃ r : ℝ, x i = (r : EReal)) :
    ∑ i, -x i = -∑ i, x i := by
  choose g hg using hx
  have e : x = fun i => (g i : EReal) := funext hg
  subst e
  simp only [← EReal.coe_neg, ← coe_sum, Finset.sum_neg_distrib]

/-- A finite sum of real numbers is a real number. -/
theorem sum_real {ι : Type*} [Fintype ι] (x : ι → EReal) (hx : ∀ i, ∃ r : ℝ, x i = (r : EReal)) :
    ∃ r : ℝ, ∑ i, x i = (r : EReal) := by
  choose g hg using hx
  exact ⟨∑ i, g i, by rw [coe_sum]; exact Finset.sum_congr rfl fun i _ => hg i⟩

/-- `(0 - a) * l = -(a * l)` for all extended reals: no finiteness is needed for the term-by-term negation. -/
theorem zero_sub_mul (a l : EReal) : (0 - a) * l = -(a * l) := by
  rw [sub_eq_add_neg, zero_add, EReal.neg_mul]

/-- With `a`, `b`, `e` real and `0 < b + e`, the product `a * log (b + e)` is a real number. -/
theorem mul_log_real (a b e : ℝ) (h : (0 : EReal) < (b : EReal) + (e : EReal)) :
    ∃ r : ℝ, (a : EReal) * Ideal.log ((b : EReal) + (e : EReal)) = (r : EReal) := by
  rw [← EReal.coe_add] at h ⊢
  have hpos : 0 < b + e := by exact_mod_cast h
  refine ⟨a * Real.log (b + e), ?_⟩
  rw [Ideal.log_coe, if_neg (not_le.mpr hpos), ← EReal.coe_mul]

end Cert.LogLoss

end
-- ==== Proof.LossAlgebra.lean ====
/-
  The identity behind the claim, on the extended reals.

  For two arrays `A`, `B` of 4096 × 4096 extended reals write `term a b = a * log (b + ε)` for the reference's
  entry and `negTerm a b = (0 - a) * log (b + ε)` for the kernel's, `ε` the float `9.99999974e-6`.  Always
  `negTerm a b = -term a b`.  The kernel adds `negTerm` over sixteen blocks of 256 rows, each row over its 4096 lanes;
  the reference adds `term` over all entries from zero and negates the total.  Row `256 t + r` runs over every row
  exactly once as `t` runs over the blocks and `r` over a block's rows, so the two sums range over the same entries;
  and where every `A` and `B` entry is a real number with `0 < B + ε`, every `term` is a real number, so negating
  term by term is negating the total.
-/
import proofs.«120346_j28741921145434_1_alg».proof.Proof.NegSum
import Idealize.ShloMosaic.Lib.ValueIdx
import Idealize.ShloMosaic.PureOps.Ideal.Laws

noncomputable section

open scoped BigOperators

namespace Cert.LogLoss

open Idealize.ShloMosaic Idealize.ShloMosaic.ValueIdx

/-- The float `9.99999974e-6` (the single-precision rounding of `1e-5`) as an extended real. -/
abbrev eps : EReal := Ideal.ofBits .f32 0x3727C5AC#32

/-- It is a real number: its exponent field is neither all ones nor zero, so the pattern denotes a normal number. -/
theorem eps_real : ∃ e : ℝ, eps = (e : EReal) := by
  unfold eps Ideal.ofBits Ideal.ieee
  dsimp only
  rw [if_neg (by decide), if_neg (by decide)]
  exact ⟨_, rfl⟩

/-- The reference's entry: `a * log (b + ε)`. -/
def term (a b : EReal) : EReal := a * Ideal.log (b + eps)

/-- The kernel's entry: `(0 - a) * log (b + ε)`. -/
def negTerm (a b : EReal) : EReal := (Ideal.ofBits .f32 0x00000000#32 - a) * Ideal.log (b + eps)

/-- The kernel's entry is the reference's, negated — for all extended reals. -/
theorem negTerm_eq (a b : EReal) : negTerm a b = -term a b := by
  unfold negTerm term
  rw [Ideal.ofBits_zero_f32, zero_sub_mul]

/-- Where both entries are real numbers and `0 < b + ε`, the reference's entry is a real number. -/
theorem term_real {a b : EReal} (ha : ∃ r : ℝ, a = (r : EReal)) (hb : ∃ r : ℝ, b = (r : EReal)) (hpos : 0 < b + eps) :
    ∃ r : ℝ, term a b = (r : EReal) := by
  obtain ⟨x, rfl⟩ := ha
  obtain ⟨y, rfl⟩ := hb
  obtain ⟨e, he⟩ := eps_real
  unfold term
  rw [he] at hpos ⊢
  exact mul_log_real x y e hpos

/-- Row `256 t + r`: row `r` of block `t`. -/
def rowOf (t : ℕ) (r : Fin 256) : Fin 4096 := ⟨(256 * t + r.val) % 4096, Nat.mod_lt _ (by decide)⟩

/-- A sum over the 4096 rows is the sum over the sixteen blocks of the sum over a block's 256 rows. -/
theorem sum_rows {M : Type*} [AddCommMonoid M] (g : Fin 4096 → M) :
    ∑ a, g a = ∑ t ∈ Finset.range 16, ∑ r : Fin 256, g (rowOf t r) := by
  rw [Finset.sum_range, ← Fintype.sum_prod_type (f := fun p : Fin 16 × Fin 256 => g (rowOf p.1.val p.2))]
  refine (Fintype.sum_equiv (finProdFinEquiv (m := 16) (n := 256)) _ (fun a : Fin 4096 => g a) fun p => ?_).symm
  refine congrArg g (Fin.ext ?_)
  have h1 := p.1.isLt
  have h2 := p.2.isLt
  show (256 * p.1.val + p.2.val) % 4096 = p.2.val + 256 * p.1.val
  omega

/-- The kernel's sum — blocks, rows, lanes of `negTerm` — is the reference's negated total of `term` from zero, where
    every entry is a real number and every `B` entry plus `ε` is positive. -/
theorem loss_eq (A B : (⟨2, ![4096, 4096]⟩ : Shape).Idx → EReal)
    (hA : ∀ i, ∃ r : ℝ, A i = (r : EReal)) (hB : ∀ i, ∃ r : ℝ, B i = (r : EReal)) (hpos : ∀ i, 0 < B i + eps) :
    ∑ t ∈ Finset.range 16, ∑ r : Fin 256, ∑ l : Fin 4096, negTerm (A (ix2 (rowOf t r) l)) (B (ix2 (rowOf t r) l))
      = -(Ideal.ofBits .f32 0x00000000#32 + ∑ i, term (A i) (B i)) := by
  rw [Ideal.ofBits_zero_f32, zero_add, ← sum_neg_of_real _ fun i => term_real (hA i) (hB i) (hpos i)]
  rw [sum_idx2, sum_rows fun a => ∑ l : Fin 4096, -term (A (ix2 a l)) (B (ix2 a l))]
  simp only [negTerm_eq]

end Cert.LogLoss

end
-- ==== Proof.Payload.lean ====
/-
  The value one grid point adds to the running total, read entry by entry on the extended reals.

  For a block `v` of 256 rows and 4096 lanes the body sums along the lanes (one total per row), views the 256 row
  totals as a column, sums the column, and views the single number as a one-by-one block: the result is
  `∑ r, ∑ c, v (r, c)`.  The block it sums has the entry `(0 - a) * log (b + ε)` where `a` and `b` are the
  entries of the two input blocks at the same place and `ε` is the float `9.99999974e-6` (`negTerm`).  The stored cell is the
  loaded cell plus that double sum.
-/
import proofs.«120346_j28741921145434_1_alg».proof.Proof.Gen.KernelIdeal.Frame
import Idealize.ShloMosaic.Lib.Pipeline.Value
import Idealize.ShloMosaic.Lib.Tactic
import proofs.«120346_j28741921145434_1_alg».proof.Proof.LossAlgebra

set_option maxRecDepth 16384

noncomputable section

open Idealize.ShloMosaic Idealize.ShloMosaic.TcCoe Idealize.SL.Sem
open Idealize.ShloMosaic.Pipeline (Dat)

open scoped BigOperators

namespace Cert.KernelIdeal.Loss

open Cert.KernelIdeal Cert.KernelIdeal.Gen Idealize.ShloMosaic.ValueIdx Cert.LogLoss

/-- The sum along the lanes, at row `r`. -/
theorem lane_sum (v : FVec Ideal S256x4096 .f32) (h : S256x4096.Reduces [1] S256) (hφ : FKind.Formats .f32)
    (hacc : (0x00000000#32 : BitVec 32) = FKind.add.neutral .f32 hφ) (r : Fin 256) :
    multiReduction .add [1] S256 v 0x00000000#32 h hφ hacc (ix1 r) = ∑ c : Fin 4096, v (ix2 r c) := by
  refine (Ideal.multiReduction_add_single v _ h hφ hacc (ix1 r)).trans ?_
  refine Finset.sum_congr rfl fun c _ => congrArg v ?_
  funext a
  apply Fin.ext
  match a with
  | ⟨0, _⟩ => rfl
  | ⟨1, _⟩ => rfl

/-- The row totals viewed as a column: entry `(r, 0)` of the column is entry `r` of the vector. -/
theorem column_apply (w : FVec Ideal S256 .f32) (h : S256.ShapeCasts S256x1) (r : Fin 256) (z : Fin 1) :
    shapeCast S256x1 w h (ix2 r z) = w (ix1 r) := by
  refine shapeCast_apply w h (ix2 r z) (ix1 r) ?_
  rw [Shape.rowMajor_val_one, Shape.rowMajor_val_two]
  show r.val = r.val * 1 + z.val
  have := z.isLt
  omega

/-- The sum down the column. -/
theorem column_sum (u : FVec Ideal S256x1 .f32) (h : S256x1.Reduces [0] S1) (hφ : FKind.Formats .f32)
    (hacc : (0x00000000#32 : BitVec 32) = FKind.add.neutral .f32 hφ) (z : Fin 1) :
    multiReduction .add [0] S1 u 0x00000000#32 h hφ hacc (ix1 z) = ∑ r : Fin 256, u (ix2 r z) := by
  refine (Ideal.multiReduction_add_single u _ h hφ hacc (ix1 z)).trans ?_
  refine Finset.sum_congr rfl fun r _ => congrArg u ?_
  funext a
  apply Fin.ext
  match a with
  | ⟨0, _⟩ => rfl
  | ⟨1, _⟩ => rfl

/-- A single number viewed as a one-by-one block. -/
theorem single_apply (w : FVec Ideal S1 .f32) (h : S1.ShapeCasts S1x1) (j : S1x1.Idx) :
    shapeCast S1x1 w h j = w (ix1 0) := by
  refine shapeCast_apply w h j (ix1 0) ?_
  rw [Shape.rowMajor_val_one, Shape.rowMajor_val_two]
  have h0 := idx2_lt0 j
  have h1 := idx2_lt1 j
  show (0 : Fin 1).val = (j 0).val * 1 + (j 1).val
  simp only [Fin.val_zero]
  omega

/-- The stored cell: the loaded cell plus the double sum, over rows and lanes, of the entries' contributions. -/
theorem stored_cell (x0 x1 : FVec Ideal S256x4096 .f32) (s : FVec Ideal S1x1 .f32) (j : S1x1.Idx) :
    k0_pay2 (F := Ideal) x0 x1 s j = s j + ∑ r : Fin 256, ∑ c : Fin 4096, negTerm (x0 (ix2 r c)) (x1 (ix2 r c)) := by
  unfold k0_pay2
  dsimp only
  refine (congrFun (shapeCast_self _ _) j).trans ?_
  show s j + _ = s j + _
  congr 1
  refine (single_apply _ _ j).trans ?_
  refine (column_sum _ _ _ _ 0).trans ?_
  refine Finset.sum_congr rfl fun r _ => ?_
  refine (column_apply _ _ r 0).trans ?_
  refine (lane_sum _ _ _ _ r).trans ?_
  rfl

end Cert.KernelIdeal.Loss

end
-- ==== Proof.Pieces.lean ====
/-
  What one grid point leaves behind, as values.

  The body keeps a running total in a one-element scratch cell.  At every point it loads the two input blocks `x0`
  (rows of the first array) and `x1` (the same rows of the second), forms the block's contribution, adds it to the
  cell and stores the cell back: the stored value is `k0_pay2 x0 x1 s`, where `s` is what the cell held when it was
  loaded.  At the first point the cell is first overwritten with zero (`k0_pay1`) and that zero is what is loaded, so
  the cell ends at `k0_pay2 x0 x1 k0_pay1`; at a later point `s` is what the point before left.  At the last point the
  cell, just stored, is read back and copied into the one-element output block, which therefore holds the same value.
-/
import proofs.«120346_j28741921145434_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

/-- The origin of a rank-2 block, as a function of the axis. -/
theorem origin2 : (![0, 0] : Fin 2 → Nat) = fun _ => 0 := funext fun a => by fin_cases a <;> rfl

/-- A middle point (neither first nor last): the cell, holding `s`, ends at `k0_pay2 x0 x1 s`. -/
theorem cell_middle (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S256x4096 .f32) (s : Vec F S1x1 .f32) :
    sout0_B_0 c i a1 h1 a2 h2 a3 h3 a4 h4 hc0 hc1 x0 x1 s = k0_pay2 x0 x1 s := by
  unfold sout0_B_0
  rw [View.read_writes_eq_canon _ _ _ (scover0_B_0 c i a1 h1 a2 h2 a3 h3 a4 h4 hc0 hc1 x0 x1 s)]
  unfold kernelRun0_B
  dsimp only
  rw [View.canon_unit_zero origin2]
  simp only [View.readAt_eq_ld, h1.read_unread, h2.read_unread, h4.read_unread,
    View.ld_unit_zero (S := S256x4096) origin2, View.ld_unit_zero (S := S1x1) origin2]

/-- The first point: the cell is zeroed, the zero is read back, and the cell ends at `k0_pay2 x0 x1 k0_pay1`. -/
theorem cell_first (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S256x4096 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin2, View.readCov_unit_zero (S := S1x1) _ origin2]
  simp only [View.readAt_eq_ld, h1.read_unread, h2.read_unread,
    View.ld_unit_zero (S := S256x4096) origin2, View.ld_unit_zero (S := S1x1) origin2]

/-- The last point: the cell, holding `s`, ends at `k0_pay2 x0 x1 s`, -/
theorem cell_last (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (s : Vec F S1x1 .f32) :
    sout0_C_0 c i a1 h1 a2 h2 a3 h3 a4 h4 hc0 hc1 x0 x1 s = k0_pay2 x0 x1 s := by
  unfold sout0_C_0
  rw [View.read_writes_eq_canon _ _ _ (scover0_C_0 c i a1 h1 a2 h2 a3 h3 a4 h4 hc0 hc1 x0 x1 s)]
  unfold kernelRun0_C
  dsimp only
  sl_unfold_words
  rw [View.canon_unit_zero origin2]
  simp only [View.readAt_eq_ld, h1.read_unread, h2.read_unread, h4.read_unread,
    View.ld_unit_zero (S := S256x4096) origin2, View.ld_unit_zero (S := S1x1) origin2]

/-- and the output block is the cell read back after that store: the same value. -/
theorem out_last (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (s : Vec F S1x1 .f32) :
    out0_C_2 c i a1 h1 a2 h2 a3 h3 a4 h4 hc0 hc1 x0 x1 s = k0_pay2 x0 x1 s := by
  unfold out0_C_2
  rw [View.read_writes_eq_canon _ _ _ (cover0_C_2 c i a1 h1 a2 h2 a3 h3 a4 h4 hc0 hc1 x0 x1 s)]
  unfold kernelRun0_C
  dsimp only
  sl_unfold_words
  rw [View.canon_unit_zero origin2, View.readCov_unit_zero (S := S1x1) _ origin2]
  simp only [View.readAt_eq_ld, h1.read_unread, h2.read_unread, h4.read_unread,
    View.ld_unit_zero (S := S256x4096) origin2, View.ld_unit_zero (S := S1x1) origin2]

end Cert.KernelIdeal.Loss

end
-- ==== Proof.Chain.lean ====
/-
  The running total across the grid, in closed form.

  The sixteen grid points visit the sixteen blocks of 256 rows in order.  `cell n` is what the scratch cell holds after
  point `n`: after point 0 the stored cell over a zeroed cell, after point `n + 1` the stored cell over `cell n`, each
  time for that point's two input blocks.  The generated account of the run (`outsAt0`, by cases on the point) agrees
  with it — by induction on the point, one step per case — and at the last point the output block is the cell.
-/
import proofs.«120346_j28741921145434_1_alg».proof.Proof.Pieces

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]
variable (m : (ℓ : Loc nD τ sig) → Buf (Elt F) ℓ)

/-- The scratch cell after point `n`. -/
def cell (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (cell c n (Nat.lt_of_succ_lt h))

/-- The run's scratch cell after point `n` is `cell n`. -/
theorem scratch_eq (c : Dev nD) : ∀ (n : ℕ) (h : n < cfg0.N), (outsAt0 m c n h).2 = cell m c n h
  | 0, h => by
    rw [outsAt0_A m c ⟨0, h⟩ rfl (by dsimp only; omega)]
    dsimp only
    exact cell_first (F := F) ..
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [cell_last]
      show k0_pay2 _ _ (outsAt0 m c n _).2 = k0_pay2 _ _ (cell m c n _)
      rw [scratch_eq c n]
    · rw [outsAt0_B m c ⟨n + 1, h⟩ h0 h1]
      dsimp only
      rw [cell_middle]
      show k0_pay2 _ _ (outsAt0 m c n _).2 = k0_pay2 _ _ (cell m c n _)
      rw [scratch_eq c n]

/-- The last point, 15. -/
theorem last_lt : 15 < cfg0.N := by rw [show cfg0.N = 16 from N_0]; decide

/-- After the last point the output block holds the final cell. -/
theorem output_eq (c : Dev nD) : (outsAt0 m c 15 last_lt).1 = cell m c 15 last_lt := by
  rw [outsAt0_C m c ⟨15, last_lt⟩ (by decide) (by decide)]
  dsimp only
  rw [out_last]
  show k0_pay2 _ _ (outsAt0 m c 14 _).2 = k0_pay2 _ _ (cell m c 14 _)
  rw [scratch_eq m c 14]

end Cert.KernelIdeal.Loss

end
-- ==== Proof.Result.lean ====
/-
  From the scratch cell to the program's result.

  The one-element output array is written back once, after the last grid point, with the output block — which is the
  final cell (`cell 15`).  Its single block is the whole array, so after the region the array holds the final cell.
  The program then views that one-by-one array as a vector of length one and returns it; the two argument arrays are
  as they were.
-/
import proofs.«120346_j28741921145434_1_alg».proof.Proof.Chain
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]
variable (m : (ℓ : Loc nD τ sig) → Buf (Elt F) ℓ) (ρ : Dev nD → PrngReg)

/-- The final cell, as the contents of the one-by-one output array. -/
abbrev total (c : Dev nD) : Buf (Elt F) ((c : Thread nD τ).loc main_v0) := cell m c 15 last_lt

/-- The only write-back, after point 15, writes the final cell: block (0, 0) of a one-by-one array is the array. -/
theorem flushed_eq (c : Dev nD) (t : Fin cfg0.N) (hf : (cfg0.win 2).flush t = true) :
    (dats m 0 c).flushed 2 t = ((cfg0.win 2).blk t).view.read (Elt F) (total m c) := by
  have hN : cfg0.N = 16 := N_0
  have h15 : t.val = 15 := by have := (flush0_2 t).mp hf; have := t.isLt; omega
  obtain rfl : t = ⟨15, last_lt⟩ := Fin.ext h15
  show (cfg0.win 2).cut (grid0.coords ⟨15, last_lt⟩) ((dats m 0 c).after 2 ⟨15, last_lt⟩) = _
  rw [after0_2]
  dsimp only
  rw [output_eq]
  have hz' : (fun a => win0_2.index ⟨15, last_lt⟩ a * main_v0.ty.shape.size a) = fun _ => 0 :=
    funext fun a => by fin_cases a <;> decide
  exact (Memref.read_access_unit_zero (Elt F) main_v0 hz' (fun a => by rw [congrFun hz' a]; simp) (total m c)).symm

/-- So after the region the output array holds the final cell: point 15's block covers it. -/
theorem final_total (c : Dev nD) : (dats m 0 c).arrAt 2 cfg0.N = total m c :=
  (dats m 0 c).arrAt_eq_of_cover 2 (total m c) (flushed_eq m c) fun i =>
    ⟨⟨15, last_lt⟩, (flush0_2 ⟨15, last_lt⟩).mpr rfl, by
      show i ∈ ((View.whole main_v0).slice (win0_2.rect ⟨15, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨15, last_lt⟩ 0 * win0_2.size 0 ≤ (i 0 : Nat)
          ∧ (i 0 : Nat) < win0_2.index ⟨15, last_lt⟩ 0 * win0_2.size 0 + win0_2.xsize (grid0.coords ⟨15, last_lt⟩) 0
        rw [show win0_2.index ⟨15, last_lt⟩ 0 * win0_2.size 0 = 0 from by decide +kernel,
          show win0_2.xsize (grid0.coords ⟨15, last_lt⟩) 0 = 1 from by decide +kernel]
        omega
      | ⟨1, _⟩ =>
        show win0_2.index ⟨15, last_lt⟩ 1 * win0_2.size 1 ≤ (i 1 : Nat)
          ∧ (i 1 : Nat) < win0_2.index ⟨15, last_lt⟩ 1 * win0_2.size 1 + win0_2.xsize (grid0.coords ⟨15, last_lt⟩) 1
        rw [show win0_2.index ⟨15, last_lt⟩ 1 * win0_2.size 1 = 0 from by decide +kernel,
          show win0_2.xsize (grid0.coords ⟨15, last_lt⟩) 1 = 1 from by decide +kernel]
        omega⟩

/-- What the program returns: the output array viewed as a vector of length one. -/
theorem returned_eq (c : Dev nD) :
    Pipeline.afterTail₀ cfgs (dats m) 0 (V0 m) [hostOps1] c main_v1 = shapeCast S1 (total m c) shapeCasts_S1x1_S1 := by
  unfold Pipeline.afterTail₀
  show StableHlo.after hostOps1 _ (Proc.devRef .tc main_v1) = _
  after_results
  exact congrArg (fun x => shapeCast S1 x shapeCasts_S1x1_S1)
    ((Pipeline.withArrays_arr spec0 launch0.win.arr_inj c _ _ 2).trans (final_total m c))

/-- The run, read: the result at the final cell viewed as a vector, the two arguments unchanged. -/
theorem run : θ_run defs (onTc (τ := τ) (main (F := F))) ⟨m, fun _ => 0, ρ⟩ fun r => ∀ c : Dev nD,
      r.2.mem ((c : Thread nD τ).loc main_v1) = shapeCast S1 (total m c) shapeCasts_S1x1_S1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (by decide)).trans (returned_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.CellSum.lean ====
/-
  The final cell as one sum over the arrays' entries.

  Block `t` of an input array is its rows `256 t` to `256 t + 255`, all 4096 lanes: entry `(r, l)` of the block is
  entry `(256 t + r, l)` of the array.  So point `t` adds to the cell the sum, over the block's rows and lanes, of the
  kernel's entry term at those places of the two arrays (`blockSum t`), the cell starts from zero, and after point
  `n` it holds the sum of the first `n + 1` blocks' contributions — by induction on the point.
-/
import proofs.«120346_j28741921145434_1_alg».proof.Proof.Payload
import proofs.«120346_j28741921145434_1_alg».proof.Proof.Result

set_option maxRecDepth 16384

noncomputable section

open scoped BigOperators
open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx Cert.LogLoss

variable (m : (ℓ : Loc nD τ sig) → Buf (Elt Ideal) ℓ)

/-- At point `t` the first input's block index is `(t, 0)`, -/
theorem index0 : ∀ t : Fin cfg0.N, win0_0.index t 0 = t.val ∧ win0_0.index t 1 = 0 :=
  (by decide +kernel : ∀ t : Fin grid0.N, win0_0.index t 0 = t.val ∧ win0_0.index t 1 = 0)

/-- and so is the second input's. -/
theorem index1 : ∀ t : Fin cfg0.N, win0_1.index t 0 = t.val ∧ win0_1.index t 1 = 0 :=
  (by decide +kernel : ∀ t : Fin grid0.N, win0_1.index t 0 = t.val ∧ win0_1.index t 1 = 0)

/-- Entry `(r, l)` of the first input's block at point `t` is entry `(256 t + r, l)` of the first array. -/
theorem block0_apply (c : Dev nD) (t : Fin cfg0.N) (r : Fin 256) (l : Fin 4096) :
    (iblk m c 0 t : FVec Ideal S256x4096 .f32) (ix2 r l)
      = m ((c : Thread nD τ).loc main_arg0) (ix2 (rowOf t.val r) l) := by
  have hN : cfg0.N = 16 := N_0
  have ht := t.isLt
  have hr := r.isLt
  unfold iblk
  rw [View.read_apply]
  show V m c main_arg0 _ = m (c.tc.loc main_arg0) _
  unfold V
  congr 1
  funext a
  apply Fin.ext
  match a with
  | ⟨0, _⟩ =>
    show win0_0.index t 0 * 256 + 1 * r.val = (256 * t.val + r.val) % 4096
    rw [(index0 t).1]; omega
  | ⟨1, _⟩ =>
    show win0_0.index t 1 * 4096 + 1 * l.val = l.val
    rw [(index0 t).2]; omega

/-- The same for the second input and the second array. -/
theorem block1_apply (c : Dev nD) (t : Fin cfg0.N) (r : Fin 256) (l : Fin 4096) :
    (iblk m c 1 t : FVec Ideal S256x4096 .f32) (ix2 r l)
      = m ((c : Thread nD τ).loc main_arg1) (ix2 (rowOf t.val r) l) := by
  have hN : cfg0.N = 16 := N_0
  have ht := t.isLt
  have hr := r.isLt
  unfold iblk
  rw [View.read_apply]
  show V m c main_arg1 _ = m (c.tc.loc main_arg1) _
  unfold V
  congr 1
  funext a
  apply Fin.ext
  match a with
  | ⟨0, _⟩ =>
    show win0_1.index t 0 * 256 + 1 * r.val = (256 * t.val + r.val) % 4096
    rw [(index1 t).1]; omega
  | ⟨1, _⟩ =>
    show win0_1.index t 1 * 4096 + 1 * l.val = l.val
    rw [(index1 t).2]; omega

/-- What block `t` contributes: the kernel's entry term summed over the block's rows and lanes. -/
def blockSum (c : Dev nD) (t : ℕ) : EReal :=
  ∑ r : Fin 256, ∑ l : Fin 4096,
    negTerm (m ((c : Thread nD τ).loc main_arg0) (ix2 (rowOf t r) l)) (m ((c : Thread nD τ).loc main_arg1) (ix2 (rowOf t r) l))

/-- The double sum over point `t`'s two blocks is that contribution. -/
theorem blocks_sum (c : Dev nD) (t : Fin cfg0.N) :
    ∑ r : Fin 256, ∑ l : Fin 4096,
        negTerm ((iblk m c 0 t : FVec Ideal S256x4096 .f32) (ix2 r l)) ((iblk m c 1 t : FVec Ideal S256x4096 .f32) (ix2 r l))
      = blockSum m c t.val :=
  Finset.sum_congr rfl fun r _ => Finset.sum_congr rfl fun l _ =>
    congrArg₂ negTerm (block0_apply m c t r l) (block1_apply m c t r l)

/-- The zeroed cell holds zero. -/
theorem zeroed (j : S1x1.Idx) : k0_pay1 (F := Ideal) j = 0 := by
  unfold k0_pay1
  refine (congrFun (shapeCast_self _ _) j).trans ?_
  exact Ideal.ofBits_zero_f32

/-- After point `n` the cell holds the first `n + 1` blocks' contributions. -/
theorem cell_sum (c : Dev nD) : ∀ (n : ℕ) (h : n < cfg0.N) (j : S1x1.Idx),
    cell m c n h j = ∑ t ∈ Finset.range (n + 1), blockSum m c t
  | 0, h, j => by
    refine (stored_cell (iblk m c 0 ⟨0, h⟩) (iblk m c 1 ⟨0, h⟩) (k0_pay1 (F := Ideal)) j).trans ?_
    rw [zeroed, zero_add, Finset.sum_range_one]
    exact blocks_sum m c ⟨0, h⟩
  | n + 1, h, j => by
    refine (stored_cell (iblk m c 0 ⟨n + 1, h⟩) (iblk m c 1 ⟨n + 1, h⟩) (cell m c n (Nat.lt_of_succ_lt h)) j).trans ?_
    rw [Finset.sum_range_succ, cell_sum c n (Nat.lt_of_succ_lt h) j]
    exact congrArg _ (blocks_sum m c ⟨n + 1, h⟩)

/-- The final cell: all sixteen blocks' contributions. -/
theorem total_sum (c : Dev nD) (j : S1x1.Idx) : total m c j = ∑ t ∈ Finset.range 16, blockSum m c t :=
  cell_sum m c 15 last_lt j

end Cert.KernelIdeal.Loss

end
-- ==== Proof.Reference.lean ====
/-
  The reference's result, read entry by entry on the extended reals.

  The reference adds a constant `ε` to every entry of the second array, takes logarithms, multiplies entry by entry
  with the first array, adds all 4096 × 4096 products starting from zero, negates the total, and returns it as a vector
  of length one.  At that vector's single index the value is `-(0 + ∑ i, term (x0 i) (x1 i))`.
-/
import proofs.«120346_j28741921145434_1_alg».proof.Proof.Gen.ReferenceIdeal.Read
import proofs.«120346_j28741921145434_1_alg».proof.Proof.LossAlgebra

noncomputable section

open scoped BigOperators
open Idealize.ShloMosaic Idealize.ShloMosaic.TcCoe Idealize.SL.Sem

namespace Cert.ReferenceIdeal.Loss

open Cert.ReferenceIdeal Cert.ReferenceIdeal.Gen Cert.ReferenceIdeal.Read Idealize.ShloMosaic.ValueIdx Cert.LogLoss

/-- The returned vector at its single index: the negated total, from zero, of the entries' terms. -/
theorem returned_apply (x0 x1 : (⟨S4096x4096, .f32⟩ : BufTy).Contents (Elt Ideal)) (k : S1.Idx) :
    val_main_v6 (F := Ideal) x0 x1 k
      = -(Ideal.ofBits .f32 0x00000000#32 + ∑ i : S4096x4096.Idx, term (x0 i) (x1 i)) := by
  unfold val_main_v6
  refine (shapeCast_apply _ shapeCasts_S_S1 k ix0 ?_).trans ?_
  · have h0 := (Shape.rowMajor S_ ix0).isLt
    have h1 : S_.numel = 1 := by decide
    have hk : (k 0).val < 1 := (k 0).isLt
    rw [Shape.rowMajor_val_one]
    omega
  · rw [val_main_v5_apply, val_main_v4_apply]
    simp only [val_main_cst_0_apply, val_main_v3_apply, val_main_v2_apply, val_main_v1_apply, val_main_v0_apply,
      val_main_cst_apply, Ideal.ofBits_def, Ideal.hostNegf_def, Ideal.negf_def, Ideal.mulf_def, Ideal.addf_def,
      Ideal.hostUnary_log_def, term, eps]

end Cert.ReferenceIdeal.Loss

end
-- ==== Proof.Domain.lean ====
/-
  What the precondition says of the entries.

  The precondition is one bit: the conjunction of three "for all entries" tests — `|a| < +∞` for the first array's
  entries, `|b| < +∞` for the second's, and `b + ε > 0` for the second's.  When the bit is 1 each test holds at every
  entry.  An extended real whose absolute value is below `+∞` is neither infinity: it is a real number.  So every entry
  of both arrays is a real number and every entry of the second, plus `ε`, is positive — the domain on which the
  logarithm of `b + ε` is a real number.
-/
import proofs.«120346_j28741921145434_1_alg».proof.Proof.Gen.Pre_finite_inputs
import proofs.«120346_j28741921145434_1_alg».proof.Proof.LossAlgebra
import Idealize.ShloMosaic.Lib.ReduceAll
import Idealize.ShloMosaic.Lib.Pipeline.Value

noncomputable section

open Idealize.ShloMosaic

namespace Cert.Pre_finite_inputs.Domain

open Cert.Pre_finite_inputs Cert.Pre_finite_inputs.Gen Idealize.ShloMosaic.ValueIdx Cert.LogLoss

/-- The scalar shape has one index. -/
instance : Subsingleton S_.Idx := ⟨fun a b => funext fun d => d.elim0⟩

/-- A "less than" comparison that answered 1 is the strict order. -/
theorem lt_of_olt {a b : EReal} (h : Ideal.cmp .olt a b = 1#1) : a < b := by
  unfold Ideal.cmp at h
  by_contra hn
  simp [hn] at h

/-- A "greater than" comparison that answered 1 is the strict order, reversed. -/
theorem lt_of_ogt {a b : EReal} (h : Ideal.cmp .ogt a b = 1#1) : b < a := by
  unfold Ideal.cmp at h
  by_contra hn
  simp [hn] at h

/-- An extended real whose absolute value is below `+∞` is a real number. -/
theorem real_of_abs_lt {x : EReal} (h : max x (-x) < Ideal.ofBits .f32 0x7F800000#32) : ∃ r : ℝ, x = (r : EReal) := by
  have hinf : Ideal.ofBits .f32 0x7F800000#32 = ⊤ := by simp [Ideal.ofBits, Ideal.ieee]
  rw [hinf] at h
  induction x using EReal.rec with
  | bot => simp at h
  | coe r => exact ⟨r, rfl⟩
  | top => simp at h

/-- Under the precondition every entry of both arrays is a real number and every entry of the second plus `ε` is positive. -/
theorem entries (x0 x1 : FVec Ideal S4096x4096 .f32) (h : fn (F := Ideal) x0 x1 = fun _ => 1#1) (i : S4096x4096.Idx) :
    (∃ r : ℝ, x0 i = (r : EReal)) ∧ (∃ r : ℝ, x1 i = (r : EReal)) ∧ 0 < x1 i + eps := by
  have h' : fn (F := Ideal) x0 x1 ix0 = 1#1 := congrFun h ix0
  unfold fn at h'
  dsimp only at h'
  obtain ⟨h12, h3⟩ := IntOp.andi_eq_one.1 h'
  obtain ⟨h1, h2⟩ := IntOp.andi_eq_one.1 h12
  have e1 := Host.reduce_andi_all _ _ _ _ ix0 h1 i
  have e2 := Host.reduce_andi_all _ _ _ _ ix0 h2 i
  have e3 := Host.reduce_andi_all _ _ _ _ ix0 h3 i
  rw [cmpf_apply, broadcastInDim_apply _ _ _ i ix0 (fun a => a.elim0)] at e1 e2
  rw [cmpf_apply, addf_apply, broadcastInDim_apply _ _ _ i ix0 (fun a => a.elim0),
    broadcastInDim_apply _ _ _ i ix0 (fun a => a.elim0)] at e3
  have a1 : max (x0 i) (-(x0 i)) < Ideal.ofBits .f32 0x7F800000#32 := lt_of_olt e1
  have a2 : max (x1 i) (-(x1 i)) < Ideal.ofBits .f32 0x7F800000#32 := lt_of_olt e2
  have a3 : Ideal.ofBits .f32 0x00000000#32 < x1 i + eps := lt_of_ogt e3
  rw [Ideal.ofBits_zero_f32] at a3
  exact ⟨real_of_abs_lt a1, real_of_abs_lt a2, a3⟩

end Cert.Pre_finite_inputs.Domain

end
-- ==== Proof.lean ====
/-
  The claim: a Pallas kernel computing the loss `-∑ d1 * log (d2 + ε)` of two 4096 × 4096 arrays against its jnp
  reference, equal as extended reals.

  The kernel walks sixteen blocks of 256 rows.  At each it forms `(0 - d1) * log (d2 + ε)` entry by entry, sums the
  block's lanes and then its rows, and adds the block's total to a one-element scratch cell that it zeroes at the first
  block; after the last block the cell is copied to the one-element output, which the program returns as a vector of
  length one.  The reference forms `d1 * log (d2 + ε)` over the whole arrays, sums every entry from zero, and negates
  the total.

  Both sums range over the same entries: row `256 t + r` meets every row once (Proof/LossAlgebra.lean `sum_rows`), and
  on the extended reals sums may be regrouped freely and `(0 - a) * l = -(a * l)` always.  The one step that is not
  free is moving the negation across the sum: with `+∞` and `-∞` both among the terms `∑ -x` and `-∑ x` differ.  A
  term is infinite only where the logarithm is, and the logarithm of `d2 + ε` is a real number exactly where
  `d2 + ε > 0`.  The precondition says so — every entry of both arrays is finite and every `d2 + ε` is positive
  (Proof/Domain.lean) — and then every term is a real number and negating term by term is negating the total
  (Proof/NegSum.lean `sum_neg_of_real`, Proof/LossAlgebra.lean `loss_eq`).

  The kernel's side: what each grid point leaves in the cell and the output (Proof/Pieces.lean), the cell after each
  point by induction (Proof/Chain.lean), the output array and the returned vector (Proof/Result.lean), the stored
  cell entry by entry (Proof/Payload.lean) and the final cell as one sum over the arrays (Proof/CellSum.lean).  The
  reference's side: its result at the one index (Proof/Reference.lean).  No operation of the kernel was rewritten
  for the idealized reading, so that part of the claim is trivial; the three programs run and leave their arguments
  unchanged.
-/
import proofs.«120346_j28741921145434_1_alg».proof.Defs
import proofs.«120346_j28741921145434_1_alg».proof.Proof.Gen.Kernel
import proofs.«120346_j28741921145434_1_alg».proof.Proof.Gen.Kernel.Frame
import proofs.«120346_j28741921145434_1_alg».proof.Proof.Gen.KernelIdeal
import proofs.«120346_j28741921145434_1_alg».proof.Proof.Gen.KernelIdeal.Frame
import proofs.«120346_j28741921145434_1_alg».proof.Proof.Gen.ReferenceIdeal
import proofs.«120346_j28741921145434_1_alg».proof.Proof.Gen.ReferenceIdeal.Run
import proofs.«120346_j28741921145434_1_alg».proof.Proof.Gen.ReferenceIdeal.Read
import proofs.«120346_j28741921145434_1_alg».proof.Proof.Gen.Pre_finite_inputs
import proofs.«120346_j28741921145434_1_alg».proof.Proof.CellSum
import proofs.«120346_j28741921145434_1_alg».proof.Proof.Reference
import proofs.«120346_j28741921145434_1_alg».proof.Proof.Domain
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten for the idealized reading. -/
theorem preserves : Cert.preserves_Kernel_KernelIdeal := trivial

/-- On the extended reals, from arrays that agree and satisfy the precondition, the kernel returns the final cell as a
    vector of length one and the reference returns the negated total: at the one index both are the same number. -/
theorem algebraic : Cert.algebraic_KernelIdeal_ReferenceIdeal := by
  intro m ρ m' ρ' hpre hagree
  refine ⟨fun c => shapeCast Cert.KernelIdeal.S1 (Cert.KernelIdeal.Loss.total m c) Cert.KernelIdeal.Gen.shapeCasts_S1x1_S1,
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2]
  funext k
  rw [Cert.ReferenceIdeal.Loss.returned_apply]
  symm
  refine (shapeCast_apply _ _ k (ix2 0 0) ?_).trans ?_
  · have hk : (k 0).val < 1 := (k 0).isLt
    rw [Shape.rowMajor_val_one, Shape.rowMajor_val_two]
    show (0 : Fin 1).val * 1 + (0 : Fin 1).val = (k 0).val
    simp only [Fin.val_zero]
    omega
  · rw [Cert.KernelIdeal.Loss.total_sum]
    unfold Cert.KernelIdeal.Loss.blockSum
    exact Cert.LogLoss.loss_eq _ _
      (fun i => (Cert.Pre_finite_inputs.Domain.entries _ _ (hpre c) i).1)
      (fun i => (Cert.Pre_finite_inputs.Domain.entries _ _ (hpre c) i).2.1)
      (fun i => (Cert.Pre_finite_inputs.Domain.entries _ _ (hpre c) i).2.2)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
